-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S_ : Shape := ⟨0, ![]⟩

class Facts : Prop where
  bcast_S_S32x256x128x128 : S_.BroadcastsInDim S32x256x128x128 (![] : Fin 0 → Fin S32x256x128x128.rank)
  reducesTo_S32x256x128x128_S_d0_1_2_3 : S32x256x128x128.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S256x64 : S_.BroadcastsInDim S256x64 (![] : Fin 0 → Fin S256x64.rank)
  reducesTo_S256x64_S_d0_1 : S256x64.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S32x256x128x128 .f32) (main_arg1 : FVec F S64x256 .f32) (main_arg2 : FVec F S256x64 .f32) (main_arg3 : FVec F S2x256 .f32) (main_arg4 : FVec F S2 .f32) : IVec S_ 1 :=
  let main_v0 : FVec F S32x256x128x128 .f32 := Host.absf main_arg0
  let main_cst : FVec F S_ .f32 := constant S_ .f32 0x7F800000#32
  let main_v1 : FVec F S32x256x128x128 .f32 := broadcastInDim S32x256x128x128 ![] bcast_S_S32x256x128x128 main_cst
  let main_v2 : IVec S32x256x128x128 1 := cmpf .olt main_v0 main_v1
  let main_c : IVec S_ 1 := constantI S_ 1 1#1
  let main_v3 : IVec S_ 1 := (fun x v => Host.reduce IntOp.andi x v reducesTo_S32x256x128x128_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_v13 main_v16
-- ==== Kernel.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S8192x16384 : Shape := ⟨2, ![8192, 16384]⟩
abbrev S8192x1 : Shape := ⟨2, ![8192, 1]⟩
abbrev S256x16384 : Shape := ⟨2, ![256, 16384]⟩
abbrev S256x1 : Shape := ⟨2, ![256, 1]⟩
abbrev S256x2048 : Shape := ⟨2, ![256, 2048]⟩
abbrev S256 : Shape := ⟨1, ![256]⟩
abbrev S32x256 : Shape := ⟨2, ![32, 256]⟩
abbrev S32x64 : Shape := ⟨2, ![32, 64]⟩
abbrev S_ : Shape := ⟨0, ![]⟩
abbrev S256x2 : Shape := ⟨2, ![256, 2]⟩
abbrev S32x2 : Shape := ⟨2, ![32, 2]⟩
abbrev S1x2 : Shape := ⟨2, ![1, 2]⟩

abbrev nBuf : Space → Nat
  | .hbm => 29
  | .vmem => 4
  | .smem => 0
  | _ => 0

abbrev bufTy : (tb : Table) → Fin (tcTables nBuf tb) → BufTy
  | .hbm, ⟨0, _⟩ => ⟨S32x256x128x128, .f32⟩
  | .hbm, ⟨1, _⟩ => ⟨S64x256, .f32⟩
  | .hbm, ⟨2, _⟩ => ⟨S256x64, .f32⟩
  | .hbm, ⟨3, _⟩ => ⟨S2x256, .f32⟩
  | .hbm, ⟨4, _⟩ => ⟨S2, .f32⟩
  | .hbm, ⟨5, _⟩ => ⟨S8192x16384, .f32⟩
  | .hbm, ⟨6, _⟩ => ⟨S8192x1, .f32⟩
  | .hbm, ⟨7, _⟩ => ⟨S32x256, .f32⟩
  | .hbm, ⟨8, _⟩ => ⟨S256x64, .f32⟩
  | .hbm, ⟨9, _⟩ => ⟨S32x64, .f32⟩
  | .hbm, ⟨10, _⟩ => ⟨S_, .f32⟩
  | .hbm, ⟨11, _⟩ => ⟨S32x64, .f32⟩
  | .hbm, ⟨12, _⟩ => ⟨S32x64, .f32⟩
  | .hbm, ⟨13, _⟩ => ⟨S64x256, .f32⟩
  | .hbm, ⟨14, _⟩ => ⟨S32x256, .f32⟩
  | .hbm, ⟨15, _⟩ => ⟨S32x256, .f32⟩
  | .hbm, ⟨16, _⟩ => ⟨S32x256, .f32⟩
  | .hbm, ⟨17, _⟩ => ⟨S_, .f32⟩
  | .hbm, ⟨18, _⟩ => ⟨S32x256, .f32⟩
  | .hbm, ⟨19, _⟩ => ⟨S32x256, .f32⟩
  | .hbm, ⟨20, _⟩ => ⟨S_, .f32⟩
  | .hbm, ⟨21, _⟩ => ⟨S32x256, .f32⟩
  | .hbm, ⟨22, _⟩ => ⟨S32x256, .f32⟩
  | .hbm, ⟨23, _⟩ => ⟨S32x256, .f32⟩
  | .hbm, ⟨24, _⟩ => ⟨S256x2, .f32⟩
  | .hbm, ⟨25, _⟩ => ⟨S32x2, .f32⟩
  | .hbm, ⟨26, _⟩ => ⟨S1x2, .f32⟩
  | .hbm, ⟨27, _⟩ => ⟨S32x2, .f32⟩
  | .hbm, ⟨28, _⟩ => ⟨S32x2, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | _, _ => ⟨S32x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c2048_i32 : BitVec 32 := 2048#32
  let v6 : BitVec 32 := Scalar.muli arg3 c2048_i32
  v6
def k0_off1 (k0_t1 : Fin k0_t1_loop.trips) : Fin 2 → Nat :=
  let c0_3 : Index := 0#32
  let c0_i32 : BitVec 32 := 0#32
  let c1_i32 : BitVec 32 := 1#32
  let arg3 : BitVec 32 := Scf.iv c0_i32 c1_i32 k0_t1
  let c2048_i32 : BitVec 32 := 2048#32
  let v6 : BitVec 32 := Scalar.muli arg3 c2048_i32
  let v7 : BitVec 32 := v6
  let v8 : Index := Scalar.indexCast v7
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x128x128_S8192x16384 : S32x256x128x128.ShapeCasts S8192x16384
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192x1_S32x256 : S8192x1.ShapeCasts S32x256
  transposes_S64x256_S256x64_1_0 : S64x256.Transposes [1, 0] S256x64
  bcast_S_S32x64 : S_.BroadcastsInDim S32x64 (![] : Fin 0 → Fin S32x64.rank)
  transposes_S256x64_S64x256_1_0 : S256x64.Transposes [1, 0] S64x256
  bcast_S_S32x256 : S_.BroadcastsInDim S32x256 (![] : Fin 0 → Fin S32x256.rank)
  transposes_S2x256_S256x2_1_0 : S2x256.Transposes [1, 0] S256x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  dot_S32x256_S256x2_S32x2_1_0_0_1_n_n_wf : DotDims.WF S32x256 S256x2 S32x2 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S256x2048.size a ≤ S256x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S8192x16384.size a
  hwx0_0 : ∀ i : grid0.Coords, EltTy.bits .f32 = 32 ∨ (Rect.block (s := S8192x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

abbrev win0_0 : Pipeline.Window sig grid0 :=
  Pipeline.Window.ofSpec (Memref.whole main_v0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S_ : Shape := ⟨0, ![]⟩
abbrev S32x256 : Shape := ⟨2, ![32, 256]⟩
abbrev S32x64 : Shape := ⟨2, ![32, 64]⟩
abbrev S32x256x1x1 : Shape := ⟨4, ![32, 256, 1, 1]⟩
abbrev S256x2 : Shape := ⟨2, ![256, 2]⟩
abbrev S32x2 : Shape := ⟨2, ![32, 2]⟩
abbrev S1x2 : Shape := ⟨2, ![1, 2]⟩

abbrev nBuf : Space → Nat
  | .hbm => 38
  | .vmem => 0
  | .smem => 0
  | _ => 0

abbrev bufTy : (tb : Table) → Fin (tcTables nBuf tb) → BufTy
  | .hbm, ⟨0, _⟩ => ⟨S32x256x128x128, .f32⟩
  | .hbm, ⟨1, _⟩ => ⟨S64x256, .f32⟩
  | .hbm, ⟨2, _⟩ => ⟨S256x64, .f32⟩
  | .hbm, ⟨3, _⟩ => ⟨S2x256, .f32⟩
  | .hbm, ⟨4, _⟩ => ⟨S2, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S256x64, .f32⟩
  | .hbm, ⟨11, _⟩ => ⟨S32x64, .f32⟩
  | .hbm, ⟨12, _⟩ => ⟨S_, .f32⟩
  | .hbm, ⟨13, _⟩ => ⟨S32x64, .f32⟩
  | .hbm, ⟨14, _⟩ => ⟨S32x64, .f32⟩
  | .hbm, ⟨15, _⟩ => ⟨S64x256, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256x1x1, .f32⟩
  | .hbm, ⟨26, _⟩ => ⟨S32x256x128x128, .f32⟩
  | .hbm, ⟨27, _⟩ => ⟨S32x256x128x128, .f32⟩
  | .hbm, ⟨28, _⟩ => ⟨S_, .f32⟩
  | .hbm, ⟨29, _⟩ => ⟨S32x256, .f32⟩
  | .hbm, ⟨30, _⟩ => ⟨S_, .f32⟩
  | .hbm, ⟨31, _⟩ => ⟨S32x256, .f32⟩
  | .hbm, ⟨32, _⟩ => ⟨S32x256, .f32⟩
  | .hbm, ⟨33, _⟩ => ⟨S256x2, .f32⟩
  | .hbm, ⟨34, _⟩ => ⟨S32x2, .f32⟩
  | .hbm, ⟨35, _⟩ => ⟨S1x2, .f32⟩
  | .hbm, ⟨36, _⟩ => ⟨S32x2, .f32⟩
  | .hbm, ⟨37, _⟩ => ⟨S32x2, .f32⟩
  | _, _ => ⟨S32x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S32x256x128x128_S32x256_d2_3 : S32x256x128x128.ReducesTo [2, 3] S32x256
  h_S_ : 0 < S_.numel
  bcast_S_S32x256 : S_.BroadcastsInDim S32x256 (![] : Fin 0 → Fin S32x256.rank)
  transposes_S64x256_S256x64_1_0 : S64x256.Transposes [1, 0] S256x64
  bcast_S_S32x64 : S_.BroadcastsInDim S32x64 (![] : Fin 0 → Fin S32x64.rank)
  transposes_S256x64_S64x256_1_0 : S256x64.Transposes [1, 0] S64x256
  bcast_S32x256_S32x256x1x1_0_1 : S32x256.BroadcastsInDim S32x256x1x1 (![0, 1] : Fin 2 → Fin S32x256x1x1.rank)
  bcast_S32x256x1x1_S32x256x128x128_0_1_2_3 : S32x256x1x1.BroadcastsInDim S32x256x128x128 (![0, 1, 2, 3] : Fin 4 → Fin S32x256x128x128.rank)
  transposes_S2x256_S256x2_1_0 : S2x256.Transposes [1, 0] S256x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  dot_S32x256_S256x2_S32x2_1_0_0_1_n_n_wf : DotDims.WF S32x256 S256x2 S32x2 [1] [0] [0] [1] [] []

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

class Facts : Prop extends Facts₀ where

variable [Facts]
-- ==== Proof.PoolSpec.lean ====
/-
  The shared vocabulary of this proof.

  The input is 32 x 256 planes of 128 x 128 numbers. For a batch entry b and a channel c the POOLED MEAN is
  the sum of the plane's 16384 entries scaled by 2^-14; the entries are listed in row-major order, entry q
  of the plane sitting at row q / 128 and column q % 128. An array is REAL-VALUED when none of its entries
  is an infinity: under the precondition every input is, and the whole argument rests on the gate
  1 / (1 + exp (-z)) then being a real number too, because a real factor moves across a finite sum of reals
  while an infinite one does not.

  The three float words the two programs spell are read here once: 2^-14, 16384 and 1.
-/
import Idealize.ShloMosaic.PureOps.Ideal
import Idealize.ShloMosaic.PureOps.Ideal.Laws
import Idealize.ShloMosaic.Lib.ValueIdx

noncomputable section

open scoped BigOperators

namespace Cert.PoolSpec

open Idealize.ShloMosaic Idealize.ShloMosaic.ValueIdx

/-- The shape of the input: batch, channel, row, column. -/
abbrev SX : Shape := ⟨4, ![32, 256, 128, 128]⟩
/-- The shape of a per-plane quantity: batch, channel. -/
abbrev SP : Shape := ⟨2, ![32, 256]⟩

/-- No entry of the array is an infinity. -/
def RealValued {s : Shape} (v : s.Idx → EReal) : Prop := ∀ i, ∃ r : ℝ, v i = (r : EReal)

/-- Entry `q`, in row-major order, of the plane of batch entry `b` and channel `c`. -/
def planeEntry (x : SX.Idx → EReal) (b : Fin 32) (c : Fin 256) (q : Fin 16384) : EReal :=
  x (ix4 b c ⟨q.val / 128, by have := q.isLt; omega⟩ ⟨q.val % 128, Nat.mod_lt _ (by norm_num)⟩)

/-- The pooled mean as a sum scaled by the word 0x38800000, which denotes 2^-14. -/
def pooled (x : SX.Idx → EReal) : SP.Idx → EReal :=
  fun j => (∑ q : Fin 16384, planeEntry x (j 0) (j 1) q) * Ideal.ofBits .f32 0x38800000#32

/-- The word 0x38800000 denotes 2^-14 = 1 / 16384. -/
theorem ofBits_inv : Ideal.ofBits .f32 0x38800000#32 = ((1 / 16384 : ℝ) : EReal) := by
  simp [Ideal.ofBits, Ideal.ieee, -EReal.coe_mul]; norm_num

/-- The word 0x46800000 denotes 16384. -/
theorem ofBits_16384 : Ideal.ofBits .f32 0x46800000#32 = ((16384 : ℝ) : EReal) := by
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The zero word denotes 0. -/
theorem ofBits_zero : Ideal.ofBits .f32 0x00000000#32 = ((0 : ℝ) : EReal) := by
  rw [Ideal.ofBits_zero_f32]; rfl

/-- Dividing by 16384 is scaling by 2^-14, on every extended real. -/
theorem div_16384 (a : EReal) :
    Ideal.div a (Ideal.ofBits .f32 0x46800000#32) = a * Ideal.ofBits .f32 0x38800000#32 := by
  rw [ofBits_16384, ofBits_inv, Ideal.div_coe (by norm_num : (16384 : ℝ) ≠ 0)]

end Cert.PoolSpec

end
-- ==== Proof.FiniteInputs.lean ====
/-
  What the precondition gives.

  The precondition compares, entry by entry, the absolute value of each of the five inputs with +∞ (the word
  0x7F800000), takes the conjunction of the compare bits over all axes of the array, and takes the conjunction of the
  five resulting bits; the claim's hypothesis is that the final bit is 1. A conjunction of bits is 1 only when each
  bit is, so every compare bit of every input is 1: |a| < +∞ for every entry a. On the extended reals |a| = max a (-a)
  is +∞ at both infinities, so such an entry is neither of them: it is a real number.

  The gate is computed from the input and the first two weight matrices; the statement keeps those three arrays.
-/
import proofs.«145485_j31842887533075_2_alg».proof.Pre_finite_inputs
import proofs.«145485_j31842887533075_2_alg».proof.Proof.Gen.Pre_finite_inputs
import proofs.«145485_j31842887533075_2_alg».proof.Proof.PoolSpec
import Idealize.ShloMosaic.Lib.ReduceAll

noncomputable section

namespace Cert.FiniteInputs

open Idealize.ShloMosaic Idealize.ShloMosaic.ValueIdx

/-- The rank-0 shape has one index. -/
instance : Subsingleton Cert.Pre_finite_inputs.S_.Idx := ⟨fun a b => funext fun d => d.elim0⟩

/-- The word 0x7F800000 denotes +∞. -/
theorem ofBits_top : Ideal.ofBits .f32 0x7F800000#32 = (⊤ : EReal) := by
  simp [Ideal.ofBits, Ideal.ieee]

/-- An extended real whose absolute value compares below +∞ is a real number: at either infinity the absolute
    value max a (-a) is +∞, which is not below itself. -/
theorem real_of_abs_lt_top (a : EReal)
    (h : Ideal.cmp .olt (max a (-a)) (Ideal.ofBits .f32 0x7F800000#32) = 1#1) : ∃ r : ℝ, a = (r : EReal) := by
  rw [ofBits_top] at h
  induction a using EReal.rec with
  | bot => simp [Ideal.cmp] at h
  | coe r => exact ⟨r, rfl⟩
  | top => simp [Ideal.cmp] at h

/-- The per-array step, for any shape: if the conjunction over all axes of the bits |x i| < top i is 1, where top is
    +∞ at every index, then no entry of x is an infinity. -/
theorem realValued_of_all {s t u : Shape} [Subsingleton t.Idx] {axes : List (Fin s.rank)}
    (x top : FVec Ideal s .f32) (htop : ∀ i, top i = Ideal.ofBits .f32 0x7F800000#32)
    (init : u.Idx → BitVec 1) (hr : s.ReducesTo axes t) (hu : 0 < u.numel) (j : t.Idx)
    (e : Host.reduce IntOp.andi (cmpf .olt (Host.absf x) top) init hr hu j = 1#1) :
    Cert.PoolSpec.RealValued x := by
  intro i
  have hi : cmpf .olt (Host.absf x) top i = 1#1 := Host.reduce_andi_all _ init hr hu j e i
  rw [cmpf_apply, htop i] at hi
  exact real_of_abs_lt_top (x i) hi

/-- Under the precondition the input and the two weight matrices the gate is computed from are real-valued. -/
theorem real_of_pre (x0 : FVec Ideal Cert.Pre_finite_inputs.S32x256x128x128 .f32)
    (x1 : FVec Ideal Cert.Pre_finite_inputs.S64x256 .f32) (x2 : FVec Ideal Cert.Pre_finite_inputs.S256x64 .f32)
    (x3 : FVec Ideal Cert.Pre_finite_inputs.S2x256 .f32) (x4 : FVec Ideal Cert.Pre_finite_inputs.S2 .f32)
    (h : Cert.Pre_finite_inputs.fn (F := Ideal) x0 x1 x2 x3 x4 = fun _ => 1#1) :
    Cert.PoolSpec.RealValued x0 ∧ Cert.PoolSpec.RealValued x1 ∧ Cert.PoolSpec.RealValued x2 := by
  have e := congrFun h ix0
  dsimp only [Cert.Pre_finite_inputs.fn, Cert.Pre_finite_inputs.fn_part1] at e
  -- the five bits, outermost conjunction first
  obtain ⟨e, -⟩ := IntOp.andi_eq_one.1 e
  obtain ⟨e, -⟩ := IntOp.andi_eq_one.1 e
  obtain ⟨e, e2⟩ := IntOp.andi_eq_one.1 e
  obtain ⟨e0, e1⟩ := IntOp.andi_eq_one.1 e
  exact ⟨realValued_of_all x0 _ (fun _ => rfl) _ _ _ _ e0, realValued_of_all x1 _ (fun _ => rfl) _ _ _ _ e1,
    realValued_of_all x2 _ (fun _ => rfl) _ _ _ _ e2⟩

end Cert.FiniteInputs

end
-- ==== Proof.KernelBody.lean ====
/-
  What the kernel's body leaves in its output block.

  At one grid point the body holds a block of 256 rows and 16384 lanes. It walks the block in eight chunks
  of 2048 lanes: for each chunk it adds to a running column the row sums of the chunk; after the last chunk
  it scales the column by 2^-14 and stores it. So row r of the stored column is the sum of all 16384 lanes
  of row r of the block, scaled: the chunks partition the lanes, lane q lying in chunk q / 2048 at position
  q % 2048, and addition of extended reals is associative and commutative, so the order of summation does
  not matter.
-/
import proofs.«145485_j31842887533075_2_alg».proof.Proof.Gen.KernelIdeal.Frame
import proofs.«145485_j31842887533075_2_alg».proof.Proof.PoolSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.BodyValue

open Cert.KernelIdeal Cert.KernelIdeal.Gen Cert.PoolSpec
open Idealize.ShloMosaic Idealize.ShloMosaic.TcCoe Idealize.ShloMosaic.ValueIdx
open Idealize.SL Idealize.SL.Sem

variable {F : FTy → Type} [FloatOps F]

/-- Chunk `k` of a block: its lanes `2048 k, …, 2048 k + 2047`, every row. -/
def chunk (x0 : Vec F S256x16384 .f32) (k : Fin k0_t1_loop.trips) : Vec F S256x2048 .f32 :=
  View.ld x0 (Rect.unit (s := S256x16384) (k0_off1 k) S256x2048.size (k0_off1_inb k))

/-- The running column before chunk `n`: zero, then one chunk's row sums added per step. -/
def accTo (x0 : Vec F S256x16384 .f32) : ℕ → FVec F S256x1 .f32
  | 0 => k0_pay1
  | n + 1 => if h : n < k0_t1_loop.trips then k0_pay2 (accTo x0 n) (chunk x0 ⟨n, h⟩) else accTo x0 n

/-- The carried value the body's loop reaches before trip `n` is the running column. -/
theorem carried_eq (c : Dev nD) (i : grid0.Coords) (arg1 : Memref sig .tc .vmem S256x16384 .f32) (harg1 : arg1.IsWhole)
    (arg2 : Memref sig .tc .vmem S256x1 .f32) (harg2 : arg2.IsWhole) (x0 : Vec F S256x16384 .f32) :
    ∀ n : ℕ, st_k0_t1 (F := F) Variants.none c none i arg1 harg1 arg2 harg2 (harg1.unread x0) k0_pay1 n = accTo x0 n
  | 0 => rfl
  | n + 1 => by
    rw [st_k0_t1.eq_2, accTo, carried_eq c i arg1 harg1 arg2 harg2 x0 n]
    unfold st_k0_t1Step
    by_cases h : n < k0_t1_loop.trips
    · rw [dif_pos h, dif_pos h]
      unfold tripR_k0_t1 trip_k0_t1
      dsimp only
      rw [View.readAt_eq_ld, harg1.read_unread]
      rfl
    · rw [dif_neg h, dif_neg h]

/-- Both offsets of the output block's one store are zero. -/
theorem offsets_zero : (![0, 0] : Fin 2 → Nat) = fun _ => 0 := by
  funext a; match a with | ⟨0, _⟩ => rfl | ⟨1, _⟩ => rfl

/-- What the body leaves in the output block: the running column after every chunk, scaled. -/
theorem out_eq (c : Dev nD) (i : grid0.Coords) (arg1 : Memref sig .tc .vmem S256x16384 .f32) (harg1 : arg1.IsWhole)
    (arg2 : Memref sig .tc .vmem S256x1 .f32) (harg2 : arg2.IsWhole) (x0 : Vec F S256x16384 .f32) :
    out0_A_1 (F := F) c i arg1 harg1 arg2 harg2 x0 = k0_pay3 (accTo x0 k0_t1_loop.trips) := by
  unfold out0_A_1
  rw [View.read_writes_eq_canon _ _ _ (cover0_A_1 c i arg1 harg1 arg2 harg2 x0)]
  unfold kernelRun0_A
  dsimp only
  rw [View.canon_unit_zero offsets_zero, carried_eq]

/-! ## The payloads at one row, on the extended reals -/

/-- The loop has eight trips. -/
theorem trips_eq : k0_t1_loop.trips = 8 := by decide

/-- The running column starts at zero. -/
theorem pay1_apply (y : S256x1.Idx) : k0_pay1 (F := Ideal) y = 0 := by
  unfold k0_pay1
  show Ideal.ofBits .f32 0x00000000#32 = 0
  exact Ideal.ofBits_zero_f32

/-- The final scaling multiplies each entry by the word 0x38800000. -/
theorem pay3_apply (v : FVec Ideal S256x1 .f32) (y : S256x1.Idx) :
    k0_pay3 (F := Ideal) v y = v y * Ideal.ofBits .f32 0x38800000#32 := rfl

/-- A lane sum over the 2048 lanes of a chunk, at row `r`. -/
theorem laneSum_apply (v : FVec Ideal S256x2048 .f32) (hacc : (0x00000000#32 : BitVec 32) = 0x00000000#32) (r : Fin 256) :
    multiReduction (F := Ideal) .add [1] S256 v 0x00000000#32 reduces_S256x2048_S256 (.inl rfl) hacc (ix1 r)
      = ∑ l : Fin 2048, v (ix2 r l) := by
  refine (Ideal.multiReduction_add_single v 0x00000000#32 reduces_S256x2048_S256 (.inl rfl) hacc (ix1 r)).trans ?_
  refine Finset.sum_congr rfl fun l _ => congrArg v ?_
  funext a; match a with | ⟨0, _⟩ => rfl | ⟨1, _⟩ => rfl

/-- One step of the loop at row `r`: the running entry plus the chunk's row sum. -/
theorem pay2_apply (acc : FVec Ideal S256x1 .f32) (v9 : FVec Ideal S256x2048 .f32) (r : Fin 256) (z : Fin 1) :
    k0_pay2 (F := Ideal) acc v9 (ix2 r z) = acc (ix2 r z) + ∑ l : Fin 2048, v9 (ix2 r l) := by
  unfold k0_pay2
  refine congrArg (acc (ix2 r z) + ·) ?_
  refine (shapeCast_apply _ shapeCasts_S256_S256x1 (ix2 r z) (ix1 r) ?_).trans ?_
  · rw [Shape.rowMajor_val_one, Shape.rowMajor_val_two]
    show r.val = r.val * 1 + z.val
    have := z.isLt; omega
  rw [shapeCast_self]
  exact laneSum_apply v9 rfl r

/-- Chunk `k` at row `r`, lane `l`, is the block at row `r`, lane `2048 k + l`. -/
theorem chunk_apply (x0 : FVec Ideal S256x16384 .f32) (k : Fin k0_t1_loop.trips) (r : Fin 256) (l : Fin 2048)
    (q : Fin 16384) (hq : q.val = 2048 * k.val + l.val) :
    chunk (F := Ideal) x0 k (ix2 r l) = x0 (ix2 r q) := by
  unfold chunk
  show x0 ((Rect.unit (s := S256x16384) (k0_off1 k) S256x2048.size (k0_off1_inb k)).emb (ix2 r l)) = _
  refine congrArg x0 (funext fun a => Fin.ext ?_)
  rw [Rect.emb_apply, Rect.off_unit, Rect.stride_unit]
  have h0 : k0_off1 k 0 = 0 := congrFun (k0_off1_eq k) 0
  have h1 : k0_off1 k 1 = 2048 * k.val := congrFun (k0_off1_eq k) 1
  match a with
  | ⟨0, _⟩ => show k0_off1 k 0 + 1 * r.val = r.val; omega
  | ⟨1, _⟩ => show k0_off1 k 1 + 1 * l.val = q.val; omega

/-- The lanes of chunk `k` at row `r`, summed. -/
def chunkSum (x0 : FVec Ideal S256x16384 .f32) (r : Fin 256) (k : Fin 8) : EReal :=
  ∑ l : Fin 2048, x0 (ix2 r ⟨2048 * k.val + l.val, by have := k.isLt; have := l.isLt; omega⟩)

/-- The running column at row `r` before chunk `n`: the lanes of the first `n` chunks summed. -/
theorem accTo_apply (x0 : FVec Ideal S256x16384 .f32) (r : Fin 256) (z : Fin 1) :
    ∀ (n : ℕ) (hn : n ≤ 8), accTo (F := Ideal) x0 n (ix2 r z)
      = ∑ k : Fin n, chunkSum x0 r ⟨k.val, by have := k.isLt; omega⟩
  | 0, _ => by
    rw [accTo, pay1_apply]; rfl
  | n + 1, hn => by
    have hlt : n < k0_t1_loop.trips := by rw [trips_eq]; omega
    rw [accTo, dif_pos hlt, pay2_apply, accTo_apply x0 r z n (by omega)]
    refine Eq.symm ((Fin.sum_univ_castSucc (fun k : Fin (n + 1) => chunkSum x0 r ⟨k.val, by have := k.isLt; omega⟩)).trans ?_)
    refine congrArg₂ (· + ·) rfl ?_
    exact (Finset.sum_congr rfl fun l _ => chunk_apply x0 ⟨n, hlt⟩ r l _ rfl).symm

/-- Eight chunks of 2048 lanes are the 16384 lanes: lane `q` is lane `q % 2048` of chunk `q / 2048`. -/
theorem sum_chunks (f : Fin 16384 → EReal) :
    ∑ k : Fin 8, ∑ l : Fin 2048, f ⟨2048 * k.val + l.val, by have := k.isLt; have := l.isLt; omega⟩ = ∑ q : Fin 16384, f q := by
  rw [← Fintype.sum_prod_type (f := fun p : Fin 8 × Fin 2048 => f ⟨2048 * p.1.val + p.2.val, by have := p.1.isLt; have := p.2.isLt; omega⟩)]
  refine Fintype.sum_equiv (finProdFinEquiv (m := 8) (n := 2048)) _ _ fun p => congrArg f (Fin.ext ?_)
  show 2048 * p.1.val + p.2.val = p.2.val + 2048 * p.1.val
  omega

/-- THE BLOCK'S RESULT at row `r`: the sum of the row's 16384 lanes, scaled by the word 0x38800000. -/
theorem out_apply (c : Dev nD) (i : grid0.Coords) (arg1 : Memref sig .tc .vmem S256x16384 .f32) (harg1 : arg1.IsWhole)
    (arg2 : Memref sig .tc .vmem S256x1 .f32) (harg2 : arg2.IsWhole) (x0 : FVec Ideal S256x16384 .f32) (r : Fin 256) (z : Fin 1) :
    out0_A_1 (F := Ideal) c i arg1 harg1 arg2 harg2 x0 (ix2 r z)
      = (∑ q : Fin 16384, x0 (ix2 r q)) * Ideal.ofBits .f32 0x38800000#32 := by
  rw [out_eq, pay3_apply, trips_eq, accTo_apply x0 r z 8 le_rfl]
  exact congrArg (· * Ideal.ofBits .f32 0x38800000#32) (sum_chunks fun q => x0 (ix2 r q))

end Cert.KernelIdeal.BodyValue

end
-- ==== Proof.KernelArray.lean ====
/-
  From the blocks to the array of scaled row sums.

  The kernel's input array has 8192 rows of 16384 lanes (row 256 b + c is the plane of batch entry b and
  channel c laid flat). Grid point t works on rows 256 t, …, 256 t + 255 — all lanes — and writes rows
  256 t, …, 256 t + 255 of a column of 8192 entries. By the body's result, row r of the block it writes is
  the scaled sum of row r of the block it read, so every point writes its block of ONE column: entry R is
  the sum of the 16384 lanes of row R, scaled by 2^-14. The 32 blocks tile the column (row R lies in block
  R / 256), so after the last point the array is that column.

  Before the region the host reshapes the input into the 8192 x 16384 array; row-major positions are kept,
  so lane q of row 256 b + c is the plane's entry q. After the region it reshapes the column into 32 x 256:
  entry (b, c) is entry 256 b + c of the column. Together: the 32 x 256 array the host code then works on is
  the pooled mean.
-/
import proofs.«145485_j31842887533075_2_alg».proof.Proof.KernelBody

set_option maxRecDepth 16384

noncomputable section

open scoped BigOperators

namespace Cert.KernelIdeal.ArrayValue

open Cert.KernelIdeal Cert.KernelIdeal.Gen Cert.PoolSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The column of scaled row sums of an 8192 x 16384 array. -/
def rowMeans (A : S8192x16384.Idx → EReal) : S8192x1.Idx → EReal :=
  fun i => (∑ q : Fin 16384, A (ix2 (⟨(i 0).val, (i 0).isLt⟩ : Fin 8192) q)) * Ideal.ofBits .f32 0x38800000#32

/-- The printed index maps, decided over the grid: the input block and the output block of point `t` are both
    block `t` along the rows, and block 0 along the other axis. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- WHAT POINT `t` WRITES BACK is block `t` of the column of scaled row sums of the array as the region finds it. -/
theorem flushed_eq (c : Dev nD) (t : Fin cfg0.N) :
    (dats m 0 c).flushed 1 t = ((cfg0.win 1).blk t).view.read (Elt Ideal) (rowMeans (V m c main_v0)) := by
  show (cfg0.win 1).cut (grid0.coords t) ((dats m 0 c).after 1 t) = _
  rw [after0_1]
  unfold outsAt0
  obtain ⟨e0, e1, e2, e3⟩ := index_facts t
  funext y
  obtain ⟨r, z, rfl⟩ : ∃ (r : Fin 256) (z : Fin 1), y = ix2 r z := ⟨y 0, y 1, eq_ix2 y⟩
  show out0_A_1 c (grid0.coords t) (ms0_0 t) (hs0_0 t) (ms0_1 t) (hs0_1 t) (iblk m c 0 t) (ix2 r z)
    = rowMeans (V m c main_v0) (((cfg0.win 1).blk t).view.emb (ix2 r z))
  refine (BodyValue.out_apply c (grid0.coords t) (ms0_0 t) (hs0_0 t) (ms0_1 t) (hs0_1 t) (iblk m c 0 t) r z).trans ?_
  unfold rowMeans
  refine congrArg (· * Ideal.ofBits .f32 0x38800000#32) (Finset.sum_congr rfl fun q _ => ?_)
  show V m c main_v0 (((cfg0.win 0).blk t).view.emb (ix2 r q)) = _
  refine congrArg (V m c main_v0) (funext fun a => Fin.ext ?_)
  match a with
  | ⟨0, _⟩ =>
    show win0_0.index t (0 : Fin 2) * 256 + 1 * r.val = win0_1.index t (0 : Fin 2) * 256 + 1 * r.val
    omega
  | ⟨1, _⟩ =>
    show win0_0.index t (1 : Fin 2) * 16384 + 1 * q.val = q.val
    omega

/-- A row of the column is in point `t`'s block iff it lies in the block's range of rows. -/
theorem mem_blk (t : Fin cfg0.N) (i : S8192x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v1).slice (win0_1.rect t)).set ↔ _
  rw [View.set_slice_whole, Rect.mem_set_unit]
  exact Iff.rfl

/-- Every block of rows is some point's. -/
theorem point_onto : ∀ q0 : Fin 32, ∃ t : Fin cfg0.N, win0_1.index t = ![q0.val, 0] :=
  (by decide +kernel : ∀ q0 : Fin 32, ∃ t : Fin grid0.N, win0_1.index t = ![q0.val, 0])

/-- The blocks tile the column: row `R` lies in block `R / 256`. -/
theorem cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ := point_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 1 ≤ (i 1).val ∧ (i 1).val < win0_1.index t (1 : Fin 2) * 1 + 1
    omega

/-- THE COLUMN after the run: the scaled row sums of the array as the region finds it. -/
theorem final (c : Dev nD) : (dats m 0 c).arrAt 1 cfg0.N = rowMeans (V m c main_v0) :=
  (dats m 0 c).arrAt_eq_of_cover 1 (rowMeans (V m c main_v0)) (fun t _ => flushed_eq m c t) cover

/-- The array the region finds is the input reshaped. -/
theorem entry_array (c : Dev nD) :
    (V m c main_v0 : S8192x16384.Idx → EReal)
      = shapeCast S8192x16384 (m ((c : Thread nD τ).loc main_arg0)) shapeCasts_S32x256x128x128_S8192x16384 := by
  dsimp only [V, V0]
  simp only [hostOps0, List.flatten_cons, List.flatten_nil, List.append_nil]
  after_results
  rfl

/-- The two reshapes around the column of scaled row sums give the pooled mean: lane `q` of row `256 b + c` is entry
    `q` of the plane of `(b, c)`, and entry `(b, c)` of the result is row `256 b + c` of the column. -/
theorem pooled_of_rowMeans (x : S32x256x128x128.Idx → EReal) :
    shapeCast S32x256 (rowMeans (shapeCast S8192x16384 x shapeCasts_S32x256x128x128_S8192x16384)) shapeCasts_S8192x1_S32x256
      = pooled x := by
  funext j
  obtain ⟨b, ch, rfl⟩ : ∃ (b : Fin 32) (ch : Fin 256), j = ix2 b ch := ⟨j 0, j 1, eq_ix2 j⟩
  have hb := b.isLt
  have hc := ch.isLt
  refine (shapeCast_apply _ shapeCasts_S8192x1_S32x256 (ix2 b ch)
    (ix2 (⟨256 * b.val + ch.val, by omega⟩ : Fin 8192) (0 : Fin 1)) ?_).trans ?_
  · rw [Shape.rowMajor_val_two, Shape.rowMajor_val_two]
    show (256 * b.val + ch.val) * 1 + 0 = b.val * 256 + ch.val
    omega
  unfold rowMeans pooled
  refine congrArg (· * Ideal.ofBits .f32 0x38800000#32) (Finset.sum_congr rfl fun q _ => ?_)
  unfold planeEntry
  have hq := q.isLt
  refine shapeCast_apply x _ _ _ ?_
  rw [Shape.rowMajor_val_four, Shape.rowMajor_val_two]
  show ((b.val * 256 + ch.val) * 128 + q.val / 128) * 128 + q.val % 128 = (256 * b.val + ch.val) * 16384 + q.val
  omega

end Cert.KernelIdeal.ArrayValue

end
-- ==== Proof.ScaledMean.lean ====
/-
  The one algebraic law of this proof, and the reference's mean read as an explicit sum.

  The reference forms a mean twice. First the mean of each 128 x 128 plane of the input; from these means it
  computes one gate value per plane. Then it multiplies every entry of a plane by that plane's gate value and
  takes the mean of the products. The second mean is the first mean times the gate value, because inside one
  plane the gate is a single number and

      sum over the plane of (x * g)  =  (sum over the plane of x) * g.

  On the extended reals this identity needs the entries x and the factor g to be real numbers: an infinite
  factor does not move across a sum whose terms have mixed signs. So it is proved once, over an abstract
  finite index set, by naming the real numbers behind the entries and behind g and computing in the reals.

  The sum over a plane is a sum over those indices of the rank-4 input whose first two coordinates are the
  given batch entry and channel. Listing the plane's 16384 entries in row-major order, entry q at row q / 128
  and column q % 128, turns it into a sum over q; that identifies the reference's first mean with the pooled
  mean of the shared vocabulary.
-/
import proofs.«145485_j31842887533075_2_alg».proof.Proof.Gen.ReferenceIdeal.Read
import proofs.«145485_j31842887533075_2_alg».proof.Proof.PoolSpec

noncomputable section

open scoped BigOperators

namespace Cert.ScaledMean

open Cert.ReferenceIdeal Cert.ReferenceIdeal.Gen Cert.ReferenceIdeal.Read Cert.PoolSpec
open Idealize.ShloMosaic Idealize.ShloMosaic.ValueIdx

/-- The embedding of the reals into the extended reals commutes with finite sums. -/
theorem coe_sum {ι : Type} (s : Finset ι) (f : ι → ℝ) :
    ∑ i ∈ s, ((f i : ℝ) : EReal) = ((∑ i ∈ s, f i : ℝ) : EReal) := by
  classical
  refine Finset.induction_on s (by simp) (fun a s ha ih => ?_)
  rw [Finset.sum_insert ha, Finset.sum_insert ha, ih, EReal.coe_add]

/-- A real factor moves out of a finite sum of reals: computed in the reals, where multiplication
    distributes over finite sums. -/
theorem sum_mul_real {ι : Type} (s : Finset ι) (a : ι → EReal) (g : EReal)
    (ha : ∀ i, ∃ r : ℝ, a i = (r : EReal)) (hg : ∃ r : ℝ, g = (r : EReal)) :
    ∑ i ∈ s, a i * g = (∑ i ∈ s, a i) * g := by
  choose r hr using ha
  obtain ⟨c, rfl⟩ := hg
  simp only [hr, ← EReal.coe_mul]
  rw [coe_sum, coe_sum, ← EReal.coe_mul, Finset.sum_mul]

/-- The reference's sum over a plane, read at a result index: the sum of the entries whose batch entry and
    channel are the result's; the initial value is the zero word and contributes nothing. -/
theorem planeSum_apply (y : S32x256x128x128.Idx → EReal) (j : S32x256.Idx) :
    Host.reduceAdd (F := Ideal) (φ := .f32) y (constant (F := Ideal) S_ .f32 0x00000000#32)
        reducesTo_S32x256x128x128_S32x256_d2_3 h_S_ j
      = ∑ i ∈ Finset.univ.filter (fun i => reducesTo_S32x256x128x128_S32x256_d2_3.drop i = j), y i := by
  show Ideal.hostReduceAdd _ _ _ j = _
  unfold Ideal.hostReduceAdd
  have hz : constant (F := Ideal) S_ .f32 0x00000000#32 (Shape.Idx.first h_S_) = 0 := by
    show Ideal.ofBits .f32 0x00000000#32 = 0
    exact Ideal.ofBits_zero_f32
  rw [hz, zero_add]

/-- Dropping the two plane axes of an input index leaves its batch entry and channel. -/
theorem drop_eq (i : S32x256x128x128.Idx) :
    reducesTo_S32x256x128x128_S32x256_d2_3.drop i = idx_main_v14 (idx_main_v15 i) := by
  funext b
  apply Fin.ext
  match b with
  | ⟨0, _⟩ => exact Shape.ReducesTo.drop_apply_val_of_eq _ i 0 0
  | ⟨1, _⟩ => exact Shape.ReducesTo.drop_apply_val_of_eq _ i 1 1

/-- The reference's second mean is its first mean times the gate: inside a plane the gate is one real
    number, and a real factor moves out of the plane's finite sum of reals. -/
theorem scaled_mean (x0 : (⟨S32x256x128x128, .f32⟩ : BufTy).Contents (Elt Ideal)) (x1 : (⟨S64x256, .f32⟩ : BufTy).Contents (Elt Ideal)) (x2 : (⟨S256x64, .f32⟩ : BufTy).Contents (Elt Ideal))
    (h0 : RealValued x0) (hg : RealValued (val_main_v13 (F := Ideal) x0 x1 x2)) :
    val_main_v19 (F := Ideal) x0 x1 x2 = mulf (F := Ideal) (s := S32x256) (φ := .f32) (val_main_v2 (F := Ideal) x0) (val_main_v13 (F := Ideal) x0 x1 x2) := by
  funext j
  rw [mulf_apply, val_main_v19_apply, val_main_v18_apply, val_main_cst_4_apply, val_main_v2_apply, val_main_v1_apply,
    val_main_cst_0_apply]
  simp only [Ideal.hostDivf_def, Ideal.ofBits_def]
  rw [div_16384, div_16384]
  unfold val_main_v17 val_main_v0 val_main_cst_3 val_main_cst
  rw [planeSum_apply, planeSum_apply]
  have hterm : ∀ i ∈ Finset.univ.filter (fun i => reducesTo_S32x256x128x128_S32x256_d2_3.drop i = j),
      val_main_v16 (F := Ideal) x0 x1 x2 i = x0 i * val_main_v13 (F := Ideal) x0 x1 x2 j := by
    intro i hi
    rw [val_main_v16_apply, val_main_v15_apply, val_main_v14_apply, ← drop_eq, (Finset.mem_filter.mp hi).2]
    rfl
  rw [Finset.sum_congr rfl hterm, sum_mul_real _ _ _ h0 (hg j), mul_right_comm]

/-- The row-major position of an input index inside its plane. -/
def planePos (i : SX.Idx) : Fin 16384 :=
  ⟨128 * (i 2).val + (i 3).val, by
    have h2 : (i 2).val < 128 := (i 2).isLt
    have h3 : (i 3).val < 128 := (i 3).isLt
    omega⟩

/-- The input index of entry `q`, in row-major order, of the plane of batch entry `j 0` and channel `j 1`. -/
def planeIdx (j : SP.Idx) (q : Fin 16384) : SX.Idx :=
  ix4 (j 0) (j 1) ⟨q.val / 128, by have := q.isLt; omega⟩ ⟨q.val % 128, Nat.mod_lt _ (by norm_num)⟩

/-- An input index lies in the plane of `j` exactly when its batch entry and channel are those of `j`. -/
theorem drop_eq_iff (i : SX.Idx) (j : SP.Idx) :
    reducesTo_S32x256x128x128_S32x256_d2_3.drop i = j ↔ i 0 = j 0 ∧ i 1 = j 1 := by
  rw [drop_eq]
  constructor
  · intro h
    exact ⟨congrFun h 0, congrFun h 1⟩
  · rintro ⟨h0, h1⟩
    funext b
    match b with
    | ⟨0, _⟩ => exact h0
    | ⟨1, _⟩ => exact h1

/-- Inside the plane of `j`, an index is recovered from its row-major position. -/
theorem planeIdx_planePos (i : SX.Idx) (j : SP.Idx) (h0 : i 0 = j 0) (h1 : i 1 = j 1) :
    planeIdx j (planePos i) = i := by
  have h2 : (i 2).val < 128 := (i 2).isLt
  have h3 : (i 3).val < 128 := (i 3).isLt
  funext a
  match a with
  | ⟨0, _⟩ => exact h0.symm
  | ⟨1, _⟩ => exact h1.symm
  | ⟨2, _⟩ => exact Fin.ext (by show (128 * (i 2).val + (i 3).val) / 128 = (i 2).val; omega)
  | ⟨3, _⟩ => exact Fin.ext (by show (128 * (i 2).val + (i 3).val) % 128 = (i 3).val; omega)

/-- A row-major position is recovered from the index it names. -/
theorem planePos_planeIdx (j : SP.Idx) (q : Fin 16384) : planePos (planeIdx j q) = q :=
  Fin.ext (by show 128 * (q.val / 128) + q.val % 128 = q.val; omega)

/-- The sum over the indices of a plane is the sum of its entries listed in row-major order. -/
theorem planeSum_rowMajor (x : SX.Idx → EReal) (j : SP.Idx) :
    ∑ i ∈ Finset.univ.filter (fun i => reducesTo_S32x256x128x128_S32x256_d2_3.drop i = j), x i
      = ∑ q : Fin 16384, planeEntry x (j 0) (j 1) q := by
  refine Finset.sum_nbij' planePos (planeIdx j) ?_ ?_ ?_ ?_ ?_
  · intro i _
    exact Finset.mem_univ _
  · intro q _
    rw [Finset.mem_filter, drop_eq_iff]
    exact ⟨Finset.mem_univ _, rfl, rfl⟩
  · intro i hi
    obtain ⟨h0, h1⟩ := (drop_eq_iff i j).mp (Finset.mem_filter.mp hi).2
    exact planeIdx_planePos i j h0 h1
  · intro q _
    exact planePos_planeIdx j q
  · intro i hi
    obtain ⟨h0, h1⟩ := (drop_eq_iff i j).mp (Finset.mem_filter.mp hi).2
    show x i = x (planeIdx j (planePos i))
    rw [planeIdx_planePos i j h0 h1]

/-- The reference's first mean is the pooled mean: the plane's sum, listed in row-major order, scaled by
    2^-14, division by 16384 being that scaling on every extended real. -/
theorem mean_eq_pooled (x0 : (⟨S32x256x128x128, .f32⟩ : BufTy).Contents (Elt Ideal)) :
    val_main_v2 (F := Ideal) x0 = pooled x0 := by
  funext j
  rw [val_main_v2_apply, val_main_v1_apply, val_main_cst_0_apply]
  simp only [Ideal.hostDivf_def, Ideal.ofBits_def]
  rw [div_16384]
  unfold val_main_v0 val_main_cst
  rw [planeSum_apply, planeSum_rowMajor]
  rfl

end Cert.ScaledMean

end
-- ==== Proof.GateReal.lean ====
/-
  The gate is a real number.

  The reference scales every entry of a plane by the plane's gate 1 / (1 + exp (-z)) before it sums the
  plane; z is reached from the plane means by a matrix product, a rectifier and a second matrix product.
  This module shows that when the input and the two weight matrices have no infinite entry, no stage up
  to the gate has one either: the plane sums, the means, the hidden layer, its rectified form, z, -z,
  exp (-z), 1 + exp (-z) and the gate. Each stage is read at an index from the stage before it. A
  transposition reads its operand at some index; a matrix product is a finite sum of products; the two
  quotients have real, nonzero denominators (16384, and 1 + exp (-z) > 0), so each of them is a product
  with a real reciprocal.
-/
import proofs.«145485_j31842887533075_2_alg».proof.Proof.Gen.ReferenceIdeal.Read
import proofs.«145485_j31842887533075_2_alg».proof.Proof.PoolSpec

noncomputable section

open scoped BigOperators

namespace Cert.GateReal

open Cert.ReferenceIdeal Cert.ReferenceIdeal.Gen Cert.ReferenceIdeal.Read Cert.PoolSpec
open Idealize.ShloMosaic Idealize.ShloMosaic.StableHlo

/-! ### Reals inside the extended reals

An extended real is REAL when it is the coercion of a real number. Sums, products, maxima, negations and
quotients by a nonzero real stay real; none of this holds with an infinity among the operands. -/

/-- The sum of two reals is a real. -/
theorem add_real {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The product of two reals is a real. -/
theorem mul_real {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- The larger of two reals is a real: it is one of the two. -/
theorem max_real {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is a real, by induction on the index set. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (hf a (Finset.mem_insert_self a s)) (ih (fun i hi => hf i (Finset.mem_insert_of_mem hi)))

/-- A real divided by a nonzero real is a real: the quotient is the product with the reciprocal. -/
theorem div_real {a : EReal} {y : ℝ} (ha : ∃ r : ℝ, a = (r : EReal)) (hy : y ≠ 0) :
    ∃ r : ℝ, Ideal.div a (y : EReal) = (r : EReal) := by
  rw [Ideal.div_coe hy]
  exact mul_real ha ⟨1 / y, rfl⟩

/-! ### The stages, in program order -/

variable (x0 : (⟨S32x256x128x128, .f32⟩ : BufTy).Contents (Elt Ideal))
  (x1 : (⟨S64x256, .f32⟩ : BufTy).Contents (Elt Ideal))
  (x2 : (⟨S256x64, .f32⟩ : BufTy).Contents (Elt Ideal))

/-- The sum of a plane is zero plus a finite sum of the plane's entries, all real. -/
theorem planeSum_real (h0 : RealValued x0) : RealValued (val_main_v0 (F := Ideal) x0) := by
  intro j
  unfold val_main_v0
  simp only [Host.reduceAdd]
  rw [Ideal.hostReduceAdd_def]
  unfold Ideal.hostReduceAdd
  refine add_real ⟨0, ?_⟩ (sum_real _ _ (fun i _ => h0 i))
  rw [val_main_cst_apply, Ideal.ofBits_def, ofBits_zero]

/-- The mean of a plane is its sum divided by 16384. -/
theorem mean_real (h0 : RealValued x0) : RealValued (val_main_v2 (F := Ideal) x0) := by
  intro i
  rw [val_main_v2_apply, val_main_v1_apply, val_main_cst_0_apply, Ideal.hostDivf_def, Ideal.ofBits_def,
    ofBits_16384]
  exact div_real (planeSum_real x0 h0 i) (by norm_num)

/-- The first weight matrix transposed has the entries of the matrix. -/
theorem weight1T_real (h1 : RealValued x1) : RealValued (val_main_v3 (F := Ideal) x1) := by
  intro i
  rw [val_main_v3_apply]
  exact h1 _

/-- The hidden layer before the rectifier: each entry is a sum of 256 products of a mean and a weight. -/
theorem hidden_real (h0 : RealValued x0) (h1 : RealValued x1) : RealValued (val_main_v4 (F := Ideal) x0 x1) := by
  intro i
  rw [val_main_v4_apply]
  exact sum_real _ _ (fun k _ => mul_real (mean_real x0 h0 _) (weight1T_real x1 h1 _))

/-- The rectifier takes the larger of an entry and zero. -/
theorem rectified_real (h0 : RealValued x0) (h1 : RealValued x1) : RealValued (val_main_v5 (F := Ideal) x0 x1) := by
  intro i
  rw [val_main_v5_apply, val_main_call0_v0_apply, val_main_call0_cst_apply, Ideal.maximumf_def, Ideal.ofBits_def,
    ofBits_zero]
  exact max_real (hidden_real x0 x1 h0 h1 i) ⟨0, rfl⟩

/-- The second weight matrix transposed has the entries of the matrix. -/
theorem weight2T_real (h2 : RealValued x2) : RealValued (val_main_v6 (F := Ideal) x2) := by
  intro i
  rw [val_main_v6_apply]
  exact h2 _

/-- The gate's argument z: each entry is a sum of 64 products of a rectified entry and a weight. -/
theorem logit_real (h0 : RealValued x0) (h1 : RealValued x1) (h2 : RealValued x2) :
    RealValued (val_main_v7 (F := Ideal) x0 x1 x2) := by
  intro i
  rw [val_main_v7_apply]
  exact sum_real _ _ (fun k _ => mul_real (rectified_real x0 x1 h0 h1 _) (weight2T_real x2 h2 _))

/-- The negated argument -z. -/
theorem negLogit_real (h0 : RealValued x0) (h1 : RealValued x1) (h2 : RealValued x2) :
    RealValued (val_main_v8 (F := Ideal) x0 x1 x2) := by
  intro i
  obtain ⟨r, hr⟩ := logit_real x0 x1 x2 h0 h1 h2 i
  rw [val_main_v8_apply, Ideal.hostNegf_def, Ideal.negf_def, hr]
  exact ⟨-r, (EReal.coe_neg r).symm⟩

/-- exp (-z) is a POSITIVE real: the exponential of a real number. -/
theorem expNegLogit_pos (h0 : RealValued x0) (h1 : RealValued x1) (h2 : RealValued x2) (i : S32x256.Idx) :
    ∃ r : ℝ, 0 < r ∧ val_main_v9 (F := Ideal) x0 x1 x2 i = (r : EReal) := by
  obtain ⟨r, hr⟩ := negLogit_real x0 x1 x2 h0 h1 h2 i
  rw [val_main_v9_apply, Ideal.hostUnary_exp_def, hr, Ideal.exp_coe]
  exact ⟨Real.exp r, Real.exp_pos r, rfl⟩

/-- The denominator 1 + exp (-z) is a positive real, so it is not zero. -/
theorem denominator_pos (h0 : RealValued x0) (h1 : RealValued x1) (h2 : RealValued x2) (i : S32x256.Idx) :
    ∃ r : ℝ, 0 < r ∧ val_main_v11 (F := Ideal) x0 x1 x2 i = (r : EReal) := by
  obtain ⟨r, hpos, hr⟩ := expNegLogit_pos x0 x1 x2 h0 h1 h2 i
  rw [val_main_v11_apply, val_main_v10_apply, val_main_cst_1_apply, Ideal.addf_def, Ideal.ofBits_def, ofBits_one, hr]
  exact ⟨1 + r, by positivity, (EReal.coe_add 1 r).symm⟩

/-- The gate 1 / (1 + exp (-z)) is a real: one divided by a nonzero real. -/
theorem gate_real (h0 : RealValued x0) (h1 : RealValued x1) (h2 : RealValued x2) :
    RealValued (val_main_v13 (F := Ideal) x0 x1 x2) := by
  intro i
  obtain ⟨r, hpos, hr⟩ := denominator_pos x0 x1 x2 h0 h1 h2 i
  rw [val_main_v13_apply, val_main_v12_apply, val_main_cst_2_apply, Ideal.hostDivf_def, Ideal.ofBits_def, ofBits_one,
    hr]
  exact div_real ⟨1, rfl⟩ hpos.ne'

end Cert.GateReal

end
-- ==== Proof.KernelRun.lean ====
/-
  The kernel's run read as a value, and met with the reference's.

  After the region the kernel's program reshapes the column of 8192 scaled row sums to 32 x 256 — the pooled
  mean f — and goes on on the host: gate = 1 / (1 + exp (-(max (f · W1ᵀ) 0 · W2ᵀ))), then (f * gate) · W3ᵀ + b3.
  The reference computes its own mean f' of each plane, the same gate from it, then the mean of every plane
  scaled by its gate, and the same last layer. Here f = f' (division by 16384 is scaling by 2^-14, and the
  plane's sum does not depend on the order of its terms), so the two gates are one array; and the mean of a
  plane scaled by its gate is the plane's mean times the gate because, the inputs being finite, the gate is a
  real number and the plane's entries are real numbers. The last layer is the same function on both sides.
-/
import proofs.«145485_j31842887533075_2_alg».proof.Proof.KernelArray
import proofs.«145485_j31842887533075_2_alg».proof.Proof.Gen.ReferenceIdeal.Read
import proofs.«145485_j31842887533075_2_alg».proof.Proof.ScaledMean
import proofs.«145485_j31842887533075_2_alg».proof.Proof.GateReal

set_option maxRecDepth 16384

noncomputable section

open scoped BigOperators

namespace Cert.KernelIdeal.RunValue

open Cert.KernelIdeal Cert.KernelIdeal.Gen Cert.PoolSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The host lines after the region, as functions of what they read -/

/-- The gate computed from a 32 x 256 array `f` of per-plane numbers and the two weight matrices:
    `1 / (1 + exp (-(max (f · W1ᵀ) 0 · W2ᵀ)))`, entry by entry. -/
def gateOf (f : S32x256.Idx → EReal) (w1 : S64x256.Idx → EReal) (w2 : S256x64.Idx → EReal) : S32x256.Idx → EReal :=
  Host.divf (F := Ideal) (φ := .f32) (broadcastInDim S32x256 ![] bcast_S_S32x256 (constant (F := Ideal) S_ .f32 0x3F800000#32))
    (addf (F := Ideal) (φ := .f32) (broadcastInDim S32x256 ![] bcast_S_S32x256 (constant (F := Ideal) S_ .f32 0x3F800000#32))
      (Host.exp (F := Ideal) (φ := .f32)
        (Host.negf (F := Ideal) (φ := .f32)
          (Host.dotGeneral (F := Ideal) (φ₁ := .f32) (φ₂ := .f32) dot_S32x64_S64x256_S32x256_1_0_0_1_n_n none
            (maximumf (F := Ideal) (φ := .f32)
              (Host.dotGeneral (F := Ideal) (φ₁ := .f32) (φ₂ := .f32) dot_S32x256_S256x64_S32x64_1_0_0_1_n_n none f
                (transpose S256x64 [1, 0] w1 transposes_S64x256_S256x64_1_0))
              (broadcastInDim S32x64 ![] bcast_S_S32x64 (constant (F := Ideal) S_ .f32 0x00000000#32)))
            (transpose S64x256 [1, 0] w2 transposes_S256x64_S64x256_1_0)))))

/-- The last layer from a 32 x 256 array `p`: `p · W3ᵀ + b3`. -/
def headOf (p : S32x256.Idx → EReal) (w3 : S2x256.Idx → EReal) (b3 : S2.Idx → EReal) : S32x2.Idx → EReal :=
  addf (F := Ideal) (φ := .f32)
    (Host.dotGeneral (F := Ideal) (φ₁ := .f32) (φ₂ := .f32) dot_S32x256_S256x2_S32x2_1_0_0_1_n_n none p
      (transpose S256x2 [1, 0] w3 transposes_S2x256_S256x2_1_0))
    (broadcastInDim S32x2 ![0, 1] bcast_S1x2_S32x2_0_1 (broadcastInDim S1x2 ![1] bcast_S2_S1x2_1 b3))

/-- Everything after the region, from the column the region wrote and the four other arguments: reshape the column
    to 32 x 256, multiply it by its gate, apply the last layer. -/
def tailOf (col : S8192x1.Idx → EReal) (w1 : S64x256.Idx → EReal) (w2 : S256x64.Idx → EReal) (w3 : S2x256.Idx → EReal)
    (b3 : S2.Idx → EReal) : S32x2.Idx → EReal :=
  headOf (mulf (F := Ideal) (φ := .f32) (shapeCast S32x256 col shapeCasts_S8192x1_S32x256)
    (gateOf (shapeCast S32x256 col shapeCasts_S8192x1_S32x256) w1 w2)) w3 b3

/-- The contents the host lines after the region start from: the pipeline's arrays as the run left them, every
    other buffer as the region found it. -/
abbrev atExit (c : Dev nD) : Valuation τ sig (Elt Ideal) :=
  Pipeline.withArrays (cfgs 0).spec c (V0 m c) (fun w => (dats m 0 c).arrAt w (cfgs 0).N)

set_option maxHeartbeats 2000000 in
/-- The result buffer after the host lines is `tailOf` of the column and the arguments at the region's exit. -/
theorem tail_eq (c : Dev nD) :
    Pipeline.afterTail₀ cfgs (dats m) 0 (V0 m) [hostOps1, hostOps1_1, hostOps1_2] c main_v19
      = tailOf (atExit m c (Proc.devRef .tc main_v1)) (atExit m c (Proc.devRef .tc main_arg1))
          (atExit m c (Proc.devRef .tc main_arg2)) (atExit m c (Proc.devRef .tc main_arg3))
          (atExit m c (Proc.devRef .tc main_arg4)) := by
  unfold Pipeline.afterTail₀
  simp only [hostOps1, hostOps1_1, hostOps1_2, List.flatten_cons, List.flatten_nil, List.append_nil, List.cons_append, List.nil_append]
  after_results_simp
  rfl

/-! ## What the host lines read -/

/-- The column at the region's exit: the scaled row sums of the reshaped input. -/
theorem exit_col (c : Dev nD) :
    atExit m c (Proc.devRef .tc main_v1)
      = ArrayValue.rowMeans (shapeCast S8192x16384 (m ((c : Thread nD τ).loc main_arg0)) shapeCasts_S32x256x128x128_S8192x16384) :=
  (Pipeline.withArrays_arr spec0 launch0.win.arr_inj c _ _ 1).trans
    ((ArrayValue.final m c).trans (congrArg ArrayValue.rowMeans (ArrayValue.entry_array m c)))

/-- The other four arguments at the region's exit are as launched: no window stages them and no host line before
    the region writes them. -/
theorem exit_arg1 (c : Dev nD) : atExit m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem exit_arg2 (c : Dev nD) : atExit m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem exit_arg3 (c : Dev nD) : atExit m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem exit_arg4 (c : Dev nD) : atExit m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-! ## The kernel's tail is the reference's

The reference's stages are named by the generated read-back of its run: its mean of each plane, its gate, its mean of
the gated planes, its result. The kernel's gate function applied to the reference's plane means IS the reference's
gate stage, and the kernel's last layer applied to the reference's mean of the gated planes IS the reference's
result: the same operations in the same order. What differs is the middle: the kernel multiplies the plane mean by
the gate, the reference takes the mean of the plane scaled by the gate. Those agree when the input and the gate
are real-valued. -/

open Cert.ReferenceIdeal.Read (val_main_v2 val_main_v13 val_main_v19 val_main_v24)

variable (x0 : S32x256x128x128.Idx → EReal) (x1 : S64x256.Idx → EReal) (x2 : S256x64.Idx → EReal)
  (x3 : S2x256.Idx → EReal) (x4 : S2.Idx → EReal)

theorem gate_stage : gateOf (val_main_v2 (F := Ideal) x0) x1 x2 = val_main_v13 (F := Ideal) x0 x1 x2 := rfl

theorem head_stage : headOf (val_main_v19 (F := Ideal) x0 x1 x2) x3 x4 = val_main_v24 (F := Ideal) x0 x1 x2 x3 x4 := rfl

/-- From the column of scaled row sums of the reshaped input, the kernel's tail computes the reference's result. -/
theorem tailOf_eq (h0 : RealValued x0) (h1 : RealValued x1) (h2 : RealValued x2) :
    tailOf (ArrayValue.rowMeans (shapeCast S8192x16384 x0 shapeCasts_S32x256x128x128_S8192x16384)) x1 x2 x3 x4
      = val_main_v24 (F := Ideal) x0 x1 x2 x3 x4 := by
  have hf : shapeCast S32x256 (ArrayValue.rowMeans (shapeCast S8192x16384 x0 shapeCasts_S32x256x128x128_S8192x16384))
      shapeCasts_S8192x1_S32x256 = val_main_v2 (F := Ideal) x0 :=
    (ArrayValue.pooled_of_rowMeans x0).trans (Cert.ScaledMean.mean_eq_pooled x0).symm
  unfold tailOf
  rw [hf]
  refine (congrArg (fun p => headOf p x3 x4) ?_).trans (head_stage x0 x1 x2 x3 x4)
  exact (Cert.ScaledMean.scaled_mean x0 x1 x2 h0 (Cert.GateReal.gate_real x0 x1 x2 h0 h1 h2)).symm

/-- The kernel's result buffer holds the reference's result of the launch contents. -/
theorem tail_value (c : Dev nD) (h0 : RealValued (m ((c : Thread nD τ).loc main_arg0)))
    (h1 : RealValued (m ((c : Thread nD τ).loc main_arg1))) (h2 : RealValued (m ((c : Thread nD τ).loc main_arg2))) :
    Pipeline.afterTail₀ cfgs (dats m) 0 (V0 m) [hostOps1, hostOps1_1, hostOps1_2] c main_v19
      = val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, exit_col, exit_arg1, exit_arg2, exit_arg3, exit_arg4]
  exact tailOf_eq _ _ _ _ _ h0 h1 h2

/-! ## The run -/

/-- From any memory with zero counters whose first three arguments are real-valued on every device: every weakly fair
    execution of the kernel's program terminates with the result buffer at the reference's result of the arguments,
    the arguments unchanged. -/
theorem run (hreal : ∀ c : Dev nD, RealValued (m ((c : Thread nD τ).loc main_arg0))
      ∧ RealValued (m ((c : Thread nD τ).loc main_arg1)) ∧ RealValued (m ((c : Thread nD τ).loc main_arg2))) :
    θ_run defs (onTc (τ := τ) (main (F := Ideal))) ⟨m, fun _ => 0, ρ⟩ fun r => ∀ c : Dev nD,
      r.2.mem ((c : Thread nD τ).loc main_v19)
        = val_main_v24 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v19 (Pipeline.mem_restRefs_of main_v19 (by decide) (by decide))).trans
        (tail_value m c (hreal c).1 (hreal c).2.1 (hreal c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  A pooled gate computed two ways.

  The input x is 32 x 256 planes of 128 x 128 numbers; W1, W2, W3 are weight matrices and b3 a bias.

  The kernel's program: a grid of 32 points, each summing 256 planes lane by lane in eight chunks and scaling
  by 2^-14, produces the mean f of every plane; the host then forms gate = 1 / (1 + exp (-(max (f · W1ᵀ) 0 · W2ᵀ)))
  and returns (f * gate) · W3ᵀ + b3.

  The reference: f' = (sum of each plane) / 16384, the same gate from f', then p' = (sum over each plane of
  x * gate) / 16384, and p' · W3ᵀ + b3.

  On the extended reals the two results are equal under the precondition that every input is finite:
    * 2^-14 and 1 / 16384 are the same real number, and a sum of extended reals does not depend on the order or
      grouping of its terms, so f = f' (no finiteness needed);
    * the gate is then one array on both sides, and it is real-valued, because x, W1 and W2 are: sums and
      products of reals, a maximum with 0, an exponential, and a quotient by 1 + exp (..) > 0 stay real;
    * inside one plane the gate is a single real number g, and for real entries  sum (x * g) = (sum x) * g;
      this is the one place where finiteness is used: an infinite g would not move across a sum of mixed signs;
    * the last layer is the same function of p' = f * gate on both sides.

  The three frames: the two kernel programs' are the generated frame certificates, the reference's is its run
  with the result dropped. The idealized kernel is the kernel's own text read on the extended reals (no
  rewrite was applied), so there is nothing to state for it.
-/
import proofs.«145485_j31842887533075_2_alg».proof.Defs
import proofs.«145485_j31842887533075_2_alg».proof.Proof.Gen.Kernel
import proofs.«145485_j31842887533075_2_alg».proof.Proof.Gen.Kernel.Frame
import proofs.«145485_j31842887533075_2_alg».proof.Proof.Gen.KernelIdeal
import proofs.«145485_j31842887533075_2_alg».proof.Proof.Gen.KernelIdeal.Frame
import proofs.«145485_j31842887533075_2_alg».proof.Proof.Gen.ReferenceIdeal
import proofs.«145485_j31842887533075_2_alg».proof.Proof.Gen.ReferenceIdeal.Run
import proofs.«145485_j31842887533075_2_alg».proof.Proof.Gen.ReferenceIdeal.Read
import proofs.«145485_j31842887533075_2_alg».proof.Proof.Gen.Pre_finite_inputs
import proofs.«145485_j31842887533075_2_alg».proof.Proof.FiniteInputs
import proofs.«145485_j31842887533075_2_alg».proof.Proof.KernelRun
import Idealize.ShloMosaic.Adequacy
import Idealize.ShloMosaic.Init

noncomputable section

namespace Cert.Proof

open Idealize.ShloMosaic Idealize.ShloMosaic.TcCoe Idealize.SL.Sem

/-- The kernel's program as printed runs to the end and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with the reference's result of the arguments: the kernel's by its run read as a value (the
    precondition makes the input and the first two weight matrices real-valued), the reference's by its own run
    and the agreement of the two memories on the arguments. -/
theorem algebraic : Cert.algebraic_KernelIdeal_ReferenceIdeal := by
  intro m ρ m' ρ' hpre hagree
  refine ⟨_, Cert.KernelIdeal.RunValue.run m ρ (fun c => Cert.FiniteInputs.real_of_pre _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Read.val_main_v24_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
